-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩
abbrev S4x2048x16384 : Shape := ⟨3, ![4, 2048, 16384]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S8192x4096, .bf16⟩
  | .hbm, ⟨5, _⟩ => ⟨S16384x4096, .bf16⟩
  | .hbm, ⟨6, _⟩ => ⟨S1x16384, .f32⟩
  | .hbm, ⟨7, _⟩ => ⟨S8192x16384, .f32⟩
  | .hbm, ⟨8, _⟩ => ⟨S4x2048x16384, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x16384_S4x2048x16384 : S8192x16384.ShapeCasts S4x2048x16384
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x4096.size a
  hwx0_1 : ∀ i : grid0.Coords, EltTy.bits .bf16 = 32 ∨ (Rect.block (s := S16384x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x16384.size a
  hwx0_3 : ∀ i : grid0.Coords, EltTy.bits .f32 = 32 ∨ (Rect.block (s := S8192x16384) S1024x2048.size (cc0_transform_3 i) (hinb0_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S4x2048x16384 : Shape := ⟨3, ![4, 2048, 16384]⟩
abbrev S1x1x16384 : Shape := ⟨3, ![1, 1, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S4x2048x16384, .f32⟩
  | .hbm, ⟨4, _⟩ => ⟨S1x1x16384, .f32⟩
  | .hbm, ⟨5, _⟩ => ⟨S4x2048x16384, .f32⟩
  | .hbm, ⟨6, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.BodyValues.lean ====
/-
  What one run of the kernel body leaves behind, case by case, as values.

  The body keeps a running sum in a scratch block carried from one grid point to the next. Writing
  `step x w acc` for "acc plus the product of the x block with the transposed w block" (the payload of the
  body's one store into the scratch) and `zero` for the all-zero block:
    * at the first point of a reduction run the scratch is first zeroed and then stepped, so it ends at
      `step x w zero`;
    * at every later point it ends at `step x w acc`, `acc` being what the point before left;
    * at the last point of a run the output block is, in addition, that stepped scratch plus the bias row
      broadcast down the rows.
  Each statement holds for any float instance: it is about which stores cover which loads, not about arithmetic.
-/
import proofs.«148601_j11081015624230_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The offsets of a whole-block load or store are all zero. -/
theorem offsets_zero : (![0, 0] : Fin 2 → Nat) = fun _ => 0 := funext fun a => by fin_cases a <;> rfl

/-- First point of a run: the scratch is zeroed, read back, and stepped once. -/
theorem scratch_first (c : Dev nD) (i : grid0.Coords)
    (a3 : Memref sig .tc .vmem S1024x1024 .bf16) (h3 : a3.IsWhole) (a4 : Memref sig .tc .vmem S2048x1024 .bf16) (h4 : a4.IsWhole)
    (a5 : Memref sig .tc .vmem S1x2048 .f32) (h5 : a5.IsWhole) (a6 : Memref sig .tc .vmem S1024x2048 .f32) (h6 : a6.IsWhole)
    (a7 : Memref sig .tc .vmem S1024x2048 .f32) (h7 : a7.IsWhole) (hc0 : cond0_0 i) (hc1 : ¬cond0_1 i)
    (x0 : Vec F S1024x1024 .bf16) (x1 : Vec F S2048x1024 .bf16) (x2 : Vec F S1x2048 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x2048) offsets_zero, View.readCov_unit_zero (S := S1024x2048) _ offsets_zero]
  simp only [View.readAt_eq_ld, h3.read_unread, h4.read_unread, View.ld_unit_zero (S := S1024x1024) offsets_zero,
    View.ld_unit_zero (S := S2048x1024) offsets_zero]

/-- A middle point of a run: the scratch the point before left is stepped once. -/
theorem scratch_middle (c : Dev nD) (i : grid0.Coords)
    (a3 : Memref sig .tc .vmem S1024x1024 .bf16) (h3 : a3.IsWhole) (a4 : Memref sig .tc .vmem S2048x1024 .bf16) (h4 : a4.IsWhole)
    (a5 : Memref sig .tc .vmem S1x2048 .f32) (h5 : a5.IsWhole) (a6 : Memref sig .tc .vmem S1024x2048 .f32) (h6 : a6.IsWhole)
    (a7 : Memref sig .tc .vmem S1024x2048 .f32) (h7 : a7.IsWhole) (hc0 : ¬cond0_0 i) (hc1 : ¬cond0_1 i)
    (x0 : Vec F S1024x1024 .bf16) (x1 : Vec F S2048x1024 .bf16) (x2 : Vec F S1x2048 .f32) (acc : Vec F S1024x2048 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero offsets_zero]
  simp only [View.readAt_eq_ld, h3.read_unread, h4.read_unread, h7.read_unread, View.ld_unit_zero (S := S1024x1024) offsets_zero,
    View.ld_unit_zero (S := S2048x1024) offsets_zero, View.ld_unit_zero (S := S1024x2048) offsets_zero]

/-- The last point of a run steps the scratch in the same way. -/
theorem scratch_last (c : Dev nD) (i : grid0.Coords)
    (a3 : Memref sig .tc .vmem S1024x1024 .bf16) (h3 : a3.IsWhole) (a4 : Memref sig .tc .vmem S2048x1024 .bf16) (h4 : a4.IsWhole)
    (a5 : Memref sig .tc .vmem S1x2048 .f32) (h5 : a5.IsWhole) (a6 : Memref sig .tc .vmem S1024x2048 .f32) (h6 : a6.IsWhole)
    (a7 : Memref sig .tc .vmem S1024x2048 .f32) (h7 : a7.IsWhole) (hc0 : ¬cond0_0 i) (hc1 : cond0_1 i)
    (x0 : Vec F S1024x1024 .bf16) (x1 : Vec F S2048x1024 .bf16) (x2 : Vec F S1x2048 .f32) (acc : Vec F S1024x2048 .f32) :
    sout0_C_0 c i a3 h3 a4 h4 a5 h5 a6 h6 a7 h7 hc0 hc1 x0 x1 x2 acc = k0_pay2 x0 x1 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero offsets_zero]
  simp only [View.readAt_eq_ld, h3.read_unread, h4.read_unread, h7.read_unread, View.ld_unit_zero (S := S1024x1024) offsets_zero,
    View.ld_unit_zero (S := S2048x1024) offsets_zero, View.ld_unit_zero (S := S1024x2048) offsets_zero]

/-- And its output block is the stepped scratch, read back, plus the bias row. -/
theorem output_last (c : Dev nD) (i : grid0.Coords)
    (a3 : Memref sig .tc .vmem S1024x1024 .bf16) (h3 : a3.IsWhole) (a4 : Memref sig .tc .vmem S2048x1024 .bf16) (h4 : a4.IsWhole)
    (a5 : Memref sig .tc .vmem S1x2048 .f32) (h5 : a5.IsWhole) (a6 : Memref sig .tc .vmem S1024x2048 .f32) (h6 : a6.IsWhole)
    (a7 : Memref sig .tc .vmem S1024x2048 .f32) (h7 : a7.IsWhole) (hc0 : ¬cond0_0 i) (hc1 : cond0_1 i)
    (x0 : Vec F S1024x1024 .bf16) (x1 : Vec F S2048x1024 .bf16) (x2 : Vec F S1x2048 .f32) (acc : Vec F S1024x2048 .f32) :
    out0_C_3 c i a3 h3 a4 h4 a5 h5 a6 h6 a7 h7 hc0 hc1 x0 x1 x2 acc = k0_pay3 (k0_pay2 x0 x1 acc) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero offsets_zero, View.readCov_unit_zero (S := S1024x2048) _ offsets_zero]
  simp only [View.readAt_eq_ld, h3.read_unread, h4.read_unread, h5.read_unread, h7.read_unread,
    View.ld_unit_zero (S := S1024x1024) offsets_zero, View.ld_unit_zero (S := S2048x1024) offsets_zero,
    View.ld_unit_zero (S := S1024x2048) offsets_zero, View.ld_unit_zero (S := S1x2048) offsets_zero]

end Cert.KernelIdeal.Body

end
-- ==== Proof.TileArithmetic.lean ====
/-
  The body's arithmetic, one entry at a time, over the extended reals.

  At the exact reading of floats the body's three stored values are, at entry (p, q) of a [1024, 2048] block:
    * the zero block:  0;
    * one reduction step:  acc[p, q] + ∑ k < 1024, x[p, k] · w[q, k]  — the matrix product contracts the second
      axis of both operands (x times the transpose of w), its own accumulator is the zero block, and the
      narrowing of the operands to a shorter float format does not change an exact value;
    * the final value:  s[p, q] + b[0, q]  — the bias row repeated down the 1024 rows.
-/
import proofs.«148601_j11081015624230_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen

/-- The product's dimension numbers: both operands contract their second axis. -/
abbrev dims : DotDims S1024x1024 S2048x1024 S1024x2048 := dot_S1024x1024_S2048x1024_S1024x2048_1_1_0_0_n_n

/-- The zero block is zero at every entry. -/
theorem zero_apply (j : S1024x2048.Idx) : k0_pay1 (F := Ideal) j = 0 := by
  unfold k0_pay1
  rw [shapeCast_self]
  exact Ideal.ofBits_zero_f32

/-- The left operand is read at the output's row … -/
theorem lhs_row (j : S1024x2048.Idx) (q : dims.contr.Idx) : (dims.lhsIdx j q 0).val = (j 0).val := by
  unfold DotDims.lhsIdx
  rw [dif_neg (show ¬(0 : Fin S1024x1024.rank) ∈ dims.lhsBatch by decide),
    dif_pos (show (0 : Fin S1024x1024.rank) ∈ dims.lhsNonContracting by decide)]
  rfl
/-- … and the contracted position; -/
theorem lhs_col (j : S1024x2048.Idx) (q : dims.contr.Idx) : (dims.lhsIdx j q 1).val = (q ⟨0, by decide⟩).val :=
  dims.lhsIdx_val_of_single rfl j q
/-- the right operand at the output's COLUMN, as its row … -/
theorem rhs_row (j : S1024x2048.Idx) (q : dims.contr.Idx) : (dims.rhsIdx j q 0).val = (j 1).val := by
  unfold DotDims.rhsIdx
  rw [dif_neg (show ¬(0 : Fin S2048x1024.rank) ∈ dims.rhsBatch by decide),
    dif_pos (show (0 : Fin S2048x1024.rank) ∈ dims.rhsNonContracting by decide)]
  rfl
/-- … and the contracted position. -/
theorem rhs_col (j : S1024x2048.Idx) (q : dims.contr.Idx) : (dims.rhsIdx j q 1).val = (q ⟨0, by decide⟩).val :=
  dims.rhsIdx_val_of_single rfl j q

/-- The product into a zero accumulator at entry (p, q): row p of x against row q of w. -/
theorem product_apply (x : FVec Ideal S1024x1024 .bf16) (w : FVec Ideal S2048x1024 .bf16) (p : Fin 1024) (q : Fin 2048) :
    matmul dims none x w (constant (F := Ideal) S1024x2048 .f32 0x00000000#32) (ix2 p q)
      = ∑ k : Fin 1024, x (ix2 p k) * w (ix2 q k) := by
  simp only [matmul]
  rw [Ideal.matmul_constant_zero_apply, ← Equiv.sum_comp (contrEquiv1 dims 1024 rfl rfl).symm]
  refine Finset.sum_congr rfl fun k _ => ?_
  have hk := contrEquiv1_symm_val dims 1024 rfl rfl k
  have el : dims.lhsIdx (ix2 p q) ((contrEquiv1 dims 1024 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 1024 rfl rfl).symm k) = ix2 q k := funext fun a => Fin.ext (by
    match a with
    | ⟨0, _⟩ => exact rhs_row _ _
    | ⟨1, _⟩ => exact (rhs_col _ _).trans hk)
  rw [el, er]

/-- One reduction step at entry (p, q). -/
theorem step_apply (x : FVec Ideal S1024x1024 .bf16) (w : FVec Ideal S2048x1024 .bf16) (acc : FVec Ideal S1024x2048 .f32)
    (p : Fin 1024) (q : Fin 2048) :
    k0_pay2 (F := Ideal) x w acc (ix2 p q) = acc (ix2 p q) + ∑ k : Fin 1024, x (ix2 p k) * w (ix2 q k) := by
  unfold k0_pay2
  simp only [shapeCast_self]
  exact congrArg (acc (ix2 p q) + ·) (product_apply x w p q)

/-- The final value at entry (p, q). -/
theorem finish_apply (s : FVec Ideal S1024x2048 .f32) (b : FVec Ideal S1x2048 .f32) (p : Fin 1024) (q : Fin 2048) :
    k0_pay3 (F := Ideal) s b (ix2 p q) = s (ix2 p q) + b (ix2 (0 : Fin 1) q) := by
  unfold k0_pay3
  simp only [shapeCast_self]
  exact congrArg (s (ix2 p q) + ·) (broadcastTo_1b_ab_apply b broadcasts_S1x2048_S1024x2048 p q)

end Cert.KernelIdeal.Tile

end
-- ==== Proof.LinearLayer.lean ====
/-
  A dense linear layer computed tile by tile, as mathematics over the extended reals.

  For x of shape [8192, 4096], w of shape [16384, 4096] and a bias row b of shape [1, 16384] the layer's
  entry (r, n) is  (∑ d < 4096, x[r, d] · w[n, d]) + b[0, n].  The tiled computation cuts the contraction axis
  into four runs of 1024 and adds the four partial products one after the other onto a zero:
  ((((0 + P₀) + P₁) + P₂) + P₃) + b[0, n]  with  P_s = ∑ k < 1024, x[r, 1024 s + k] · w[n, 1024 s + k].
  The two agree because addition of extended reals is commutative and associative and `0` is its unit; no
  entry has to be finite, and no product is rearranged.

  Entries are read by natural-number coordinates (`entry`), so that every question about which entry a tile
  touches is linear arithmetic on naturals.
-/
import Idealize.ShloMosaic.PureOps.Ideal
import Idealize.ShloMosaic.Lib.ValueIdx

noncomputable section

open scoped BigOperators

namespace Cert.Linear

open Idealize.ShloMosaic Idealize.ShloMosaic.ValueIdx

/-- A rank-2 array of extended reals. -/
abbrev Arr2 (n0 n1 : Nat) : Type := (⟨2, ![n0, n1]⟩ : Shape).Idx → EReal

/-- The entry at natural-number coordinates `(a, b)`; zero off the array (never consulted there). -/
def entry {n0 n1 : Nat} (x : Arr2 n0 n1) (a b : Nat) : EReal :=
  if h : a < n0 ∧ b < n1 then x (ix2 ⟨a, h.1⟩ ⟨b, h.2⟩) else 0

/-- An array read at an index is its entry at the index's coordinates. -/
theorem apply_eq_entry {n0 n1 : Nat} (x : Arr2 n0 n1) (j : (⟨2, ![n0, n1]⟩ : Shape).Idx) (a b : Nat)
    (ha : (j 0).val = a) (hb : (j 1).val = b) : x j = entry x a b := by
  subst ha; subst hb
  unfold entry
  rw [dif_pos ⟨idx2_lt0 j, idx2_lt1 j⟩]
  exact congrArg x (eq_ix2 j)

/-- The entry at in-range coordinates. -/
theorem entry_ix2 {n0 n1 : Nat} (x : Arr2 n0 n1) (a : Fin n0) (b : Fin n1) : entry x a.val b.val = x (ix2 a b) := by
  unfold entry
  rw [dif_pos ⟨a.isLt, b.isLt⟩]

/-- A sum over `n · K` consecutive naturals is the sum over `n` runs of `K`. -/
theorem sum_range_runs {M : Type*} [AddCommMonoid M] (f : Nat → M) (K : Nat) :
    ∀ n : Nat, ∑ d ∈ Finset.range (n * K), f d = ∑ s ∈ Finset.range n, ∑ k ∈ Finset.range K, f (s * K + k)
  | 0 => by simp
  | n + 1 => by rw [Nat.succ_mul, Finset.sum_range_add, sum_range_runs f K n, Finset.sum_range_succ]

/-- The contraction axis of length 4096 is four runs of 1024. -/
theorem sum_four_runs {M : Type*} [AddCommMonoid M] (g : Nat → M) :
    ∑ s ∈ Finset.range 4, ∑ k : Fin 1024, g (s * 1024 + k.val) = ∑ d : Fin 4096, g d.val := by
  rw [← Finset.sum_range (n := 4096) g, show (4096 : Nat) = 4 * 1024 from rfl, sum_range_runs g 1024 4]
  exact Finset.sum_congr rfl fun s _ => (Finset.sum_range (n := 1024) fun k => g (s * 1024 + k)).symm

/-- The partial product of run `s` at entry `(a, b)`. -/
def partialDot (x : Arr2 8192 4096) (w : Arr2 16384 4096) (a b s : Nat) : EReal :=
  ∑ k : Fin 1024, entry x a (s * 1024 + k.val) * entry w b (s * 1024 + k.val)

/-- The tiled computation's entry `(a, b)`: the four partial products added onto zero, then the bias. -/
def tiled (x : Arr2 8192 4096) (w : Arr2 16384 4096) (b : Arr2 1 16384) (r n : Nat) : EReal :=
  (0 + ∑ s ∈ Finset.range 4, partialDot x w r n s) + entry b 0 n

/-- The layer's entry `(r, n)`. -/
def dense (x : Arr2 8192 4096) (w : Arr2 16384 4096) (b : Arr2 1 16384) (r : Fin 8192) (n : Fin 16384) : EReal :=
  (∑ d : Fin 4096, x (ix2 r d) * w (ix2 n d)) + b (ix2 0 n)

/-- The tiled computation is the layer. -/
theorem tiled_eq_dense (x : Arr2 8192 4096) (w : Arr2 16384 4096) (b : Arr2 1 16384) (r : Fin 8192) (n : Fin 16384) :
    tiled x w b r.val n.val = dense x w b r n := by
  unfold tiled dense partialDot
  rw [zero_add, sum_four_runs fun d => entry x r.val d * entry w n.val d]
  have hb : entry b 0 n.val = b (ix2 0 n) := entry_ix2 b 0 n
  rw [hb]
  exact congrArg (· + b (ix2 0 n)) (Finset.sum_congr rfl fun d _ => by rw [entry_ix2 x r d, entry_ix2 w n d])

end Cert.Linear

end
-- ==== Proof.BlockReads.lean ====
/-
  Which entries of the arrays a grid point's blocks hold.

  The grid has 8 × 8 × 4 points, numbered row-major: point t has row-tile  t / 32,  column-tile  (t / 4) % 8  and
  reduction step  t % 4.  At that point
    * the x block  [1024, 1024]  is rows  1024·(t / 32) + p  and columns  1024·(t % 4) + k  of x,
    * the w block  [2048, 1024]  is rows  2048·((t / 4) % 8) + q  and columns  1024·(t % 4) + k  of w,
    * the bias block  [1, 2048]  is columns  2048·((t / 4) % 8) + q  of the bias row,
    * the output block  [1024, 2048]  sits at rows  1024·(t / 32) + p,  columns  2048·((t / 4) % 8) + q.
  The block numbers are decided once over the 256 points; the rest is "block number × block size + offset".
-/
import proofs.«148601_j11081015624230_2_alg».proof.Proof.Gen.KernelIdeal.Frame
import proofs.«148601_j11081015624230_2_alg».proof.Proof.LinearLayer
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen Cert.Linear

variable (m : (ℓ : Loc nD τ sig) → Buf (Elt Ideal) ℓ)

/-- The three arrays the region reads, as it finds them. -/
abbrev xs (c : Dev nD) : Arr2 8192 4096 := V m c main_v1
abbrev ws (c : Dev nD) : Arr2 16384 4096 := V m c main_v2
abbrev bs (c : Dev nD) : Arr2 1 16384 := V m c main_v3

/-- Each window's block numbers at point `t`, decided over the grid. -/
theorem block_numbers : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- The x block at point `t`. -/
theorem x_block (c : Dev nD) (t : Fin cfg0.N) (y : S1024x1024.Idx) :
    (iblk m c 0 t : Vec Ideal S1024x1024 .bf16) y
      = entry (xs m c) (t.val / 32 * 1024 + (y 0).val) (t.val % 4 * 1024 + (y 1).val) := by
  obtain ⟨e0, e1, -⟩ := block_numbers t
  unfold iblk
  rw [View.read_apply]
  show V m c main_v1 _ = _
  refine apply_eq_entry (xs m c) _ _ _ ?_ ?_
  · show win0_0.index t (0 : Fin 2) * 1024 + 1 * (y 0).val = _
    omega
  · show win0_0.index t (1 : Fin 2) * 1024 + 1 * (y 1).val = _
    omega

/-- The w block at point `t`. -/
theorem w_block (c : Dev nD) (t : Fin cfg0.N) (y : S2048x1024.Idx) :
    (iblk m c 1 t : Vec Ideal S2048x1024 .bf16) y
      = entry (ws m c) (t.val / 4 % 8 * 2048 + (y 0).val) (t.val % 4 * 1024 + (y 1).val) := by
  obtain ⟨-, -, e0, e1, -⟩ := block_numbers t
  unfold iblk
  rw [View.read_apply]
  show V m c main_v2 _ = _
  refine apply_eq_entry (ws m c) _ _ _ ?_ ?_
  · show win0_1.index t (0 : Fin 2) * 2048 + 1 * (y 0).val = _
    omega
  · show win0_1.index t (1 : Fin 2) * 1024 + 1 * (y 1).val = _
    omega

/-- The bias block at point `t`. -/
theorem b_block (c : Dev nD) (t : Fin cfg0.N) (y : S1x2048.Idx) :
    (iblk m c 2 t : Vec Ideal S1x2048 .f32) y = entry (bs m c) 0 (t.val / 4 % 8 * 2048 + (y 1).val) := by
  obtain ⟨-, -, -, -, e0, e1, -⟩ := block_numbers t
  unfold iblk
  rw [View.read_apply]
  show V m c main_v3 _ = _
  refine apply_eq_entry (bs m c) _ _ _ ?_ ?_
  · show win0_2.index t (0 : Fin 2) * 1 + 1 * (y 0).val = _
    have : (y 0).val < 1 := (y 0).isLt
    omega
  · show win0_2.index t (1 : Fin 2) * 2048 + 1 * (y 1).val = _
    omega

end Cert.KernelIdeal.Blocks

end
-- ==== Proof.Accumulation.lean ====
/-
  The running sum across a reduction run, and the block a run writes back.

  Grid points come in runs of four consecutive points  4u, 4u + 1, 4u + 2, 4u + 3  that share a row tile (u / 8) and
  a column tile (u % 8) and walk the four reduction steps. The scratch block is reset-and-stepped at the first point
  of a run and stepped at the other three, so after the run's last point its entry (p, q) is
      0 + (P₀ + P₁ + P₂ + P₃),
  P_s being the partial product of reduction step s at row  1024·(u / 8) + p  and column  2048·(u % 8) + q.
  The output block written back there adds the bias entry of that column: it is the tiled layer's entry.
-/
import proofs.«148601_j11081015624230_2_alg».proof.Proof.BodyValues
import proofs.«148601_j11081015624230_2_alg».proof.Proof.TileArithmetic
import proofs.«148601_j11081015624230_2_alg».proof.Proof.BlockReads

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.Linear Cert.KernelIdeal.Blocks

variable (m : (ℓ : Loc nD τ sig) → Buf (Elt Ideal) ℓ)

/-- The scratch block after point `n`. -/
abbrev scratchAt (c : Dev nD) (n : Nat) (h : n < cfg0.N) : S1024x2048.Idx → EReal := (outsAt0 m c n h).2

/-- What a run's first point leaves in it: the zero block stepped once with that point's blocks. -/
abbrev resetAt (c : Dev nD) (n : Nat) (h : n < cfg0.N) : S1024x2048.Idx → EReal :=
  k0_pay2 (F := Ideal) (iblk m c 0 ⟨n, h⟩) (iblk m c 1 ⟨n, h⟩) (k0_pay1 (F := Ideal))

/-- What any later point makes of the block it finds. -/
abbrev stepAt (c : Dev nD) (n : Nat) (h : n < cfg0.N) (acc : S1024x2048.Idx → EReal) : S1024x2048.Idx → EReal :=
  k0_pay2 (F := Ideal) (iblk m c 0 ⟨n, h⟩) (iblk m c 1 ⟨n, h⟩) acc

/-- The contents after a point depend on the point's number only. -/
theorem outs_congr (c : Dev nD) {a b : Nat} (ha : a < cfg0.N) (hb : b < cfg0.N) (e : a = b) :
    outsAt0 m c a ha = outsAt0 m c b hb := by
  subst e; rfl

/-- At the first point of a run the scratch is the zero block stepped once. -/
theorem scratch_first_point (c : Dev nD) (t : Fin cfg0.N) (h0 : t.val % 4 = 0) :
    (outsAt0 m c t.val t.isLt).2 = k0_pay2 (F := Ideal) (iblk m c 0 t) (iblk m c 1 t) (k0_pay1 (F := Ideal)) := by
  have h1 : ¬t.val % 4 = 3 := by omega
  rw [outsAt0_A m c t h0 h1]
  dsimp only
  rw [Body.scratch_first]

/-- At every other point it is the step of what the point before left. -/
theorem scratch_later_point (c : Dev nD) (t : Fin cfg0.N) (hne : ¬t.val % 4 = 0) :
    (outsAt0 m c t.val t.isLt).2 = k0_pay2 (F := Ideal) (iblk m c 0 t) (iblk m c 1 t)
      (outsAt0 m c (t.val - 1) (Nat.lt_of_le_of_lt (Nat.sub_le _ _) t.isLt)).2 := by
  by_cases h1 : t.val % 4 = 3
  · rw [outsAt0_C m c t hne h1]
    dsimp only
    rw [Body.scratch_last]
  · rw [outsAt0_B m c t hne h1]
    dsimp only
    rw [Body.scratch_middle]

/-- The same two facts by the point's number. -/
theorem scratch_reset (c : Dev nD) (n : Nat) (h : n < cfg0.N) (h0 : n % 4 = 0) : scratchAt m c n h = resetAt m c n h :=
  scratch_first_point m c ⟨n, h⟩ h0

theorem scratch_step (c : Dev nD) (n : Nat) (h : n + 1 < cfg0.N) (hne : ¬(n + 1) % 4 = 0) :
    scratchAt m c (n + 1) h = stepAt m c (n + 1) h (scratchAt m c n (Nat.lt_of_succ_lt h)) := by
  have e := scratch_later_point m c ⟨n + 1, h⟩ hne
  rw [outs_congr m c (a := (⟨n + 1, h⟩ : Fin cfg0.N).val - 1) (b := n)
    (Nat.lt_of_le_of_lt (Nat.sub_le _ _) (⟨n + 1, h⟩ : Fin cfg0.N).isLt) (Nat.lt_of_succ_lt h) rfl] at e
  exact e

/-- The partial product point `n` adds at entry `i` of the block. -/
def addend (c : Dev nD) (n : Nat) (i : S1024x2048.Idx) : EReal :=
  partialDot (xs m c) (ws m c) (n / 32 * 1024 + (i 0).val) (n / 4 % 8 * 2048 + (i 1).val) (n % 4)

/-- One step at an entry: what was there plus the point's partial product. -/
theorem step_entry (c : Dev nD) (n : Nat) (h : n < cfg0.N) (acc : S1024x2048.Idx → EReal) (i : S1024x2048.Idx) :
    stepAt m c n h acc i = acc i + addend m c n i := by
  obtain ⟨p, q, rfl⟩ : ∃ (p : Fin 1024) (q : Fin 2048), i = ix2 p q := ⟨i 0, i 1, eq_ix2 i⟩
  refine (Tile.step_apply (iblk m c 0 ⟨n, h⟩) (iblk m c 1 ⟨n, h⟩) acc p q).trans ?_
  unfold addend partialDot
  refine congrArg (acc (ix2 p q) + ·) (Finset.sum_congr rfl fun k _ => ?_)
  exact congrArg₂ (· * ·) (x_block m c ⟨n, h⟩ (ix2 p k)) (w_block m c ⟨n, h⟩ (ix2 q k))

/-- The reset at an entry: zero plus the point's partial product. -/
theorem reset_entry (c : Dev nD) (n : Nat) (h : n < cfg0.N) (i : S1024x2048.Idx) :
    resetAt m c n h i = 0 + addend m c n i := by
  refine (step_entry m c n h (k0_pay1 (F := Ideal)) i).trans ?_
  rw [Tile.zero_apply]

/-- After the last point of run `u` the scratch holds zero plus the four partial products of its tile. -/
theorem scratch_run_end (c : Dev nD) (u : Nat) (h : 4 * u + 3 < cfg0.N) (p : Fin 1024) (q : Fin 2048) :
    scratchAt m c (4 * u + 3) h (ix2 p q)
      = 0 + ∑ s ∈ Finset.range 4, partialDot (xs m c) (ws m c) (u / 8 * 1024 + p.val) (u % 8 * 2048 + q.val) s := by
  refine (congrFun (Pipeline.eq_accAt (scratchAt m c) 4 (resetAt m c) (stepAt m c) (scratch_reset m c) (scratch_step m c)
    u 3 (by decide) h) (ix2 p q)).trans ?_
  refine (Pipeline.accAt_add_apply (resetAt m c) (stepAt m c) (fun _ => 0) (addend m c) (4 * u) 3
    (fun h i => reset_entry m c _ h i) (fun n h acc i _ _ => step_entry m c n h acc i) 3 (le_refl 3) h (ix2 p q)).trans ?_
  refine congrArg (0 + ·) (Finset.sum_congr rfl fun s hs => ?_)
  have hs' : s < 4 := Finset.mem_range.mp hs
  unfold addend
  have e1 : (4 * u + s) / 32 = u / 8 := by omega
  have e2 : (4 * u + s) / 4 % 8 = u % 8 := by omega
  have e3 : (4 * u + s) % 4 = s := by omega
  rw [e1, e2, e3]

/-- The output block at a run's last point is its scratch plus the bias row. -/
theorem output_run_end (c : Dev nD) (t : Fin cfg0.N) (h3 : t.val % 4 = 3) :
    (outsAt0 m c t.val t.isLt).1 = k0_pay3 (F := Ideal) (outsAt0 m c t.val t.isLt).2 (iblk m c 2 t) := by
  have h0 : ¬t.val % 4 = 0 := by omega
  rw [outsAt0_C m c t h0 h3]
  dsimp only
  rw [Body.output_last, Body.scratch_last]

/-- So its entry (p, q) is the tiled layer's entry at the block's place in the array. -/
theorem output_entry (c : Dev nD) (t : Fin cfg0.N) (h3 : t.val % 4 = 3) (p : Fin 1024) (q : Fin 2048) :
    (outsAt0 m c t.val t.isLt).1 (ix2 p q)
      = tiled (xs m c) (ws m c) (bs m c) (t.val / 32 * 1024 + p.val) (t.val / 4 % 8 * 2048 + q.val) := by
  have hN : cfg0.N = 256 := N_0
  have ht : t.val < cfg0.N := t.isLt
  have hu : 4 * (t.val / 4) + 3 < cfg0.N := by omega
  have same : ∀ (n : Nat) (hn : n < cfg0.N), n = t.val → scratchAt m c n hn = scratchAt m c t.val t.isLt :=
    fun n hn e => by subst e; rfl
  rw [output_run_end m c t h3]
  refine (Tile.finish_apply (scratchAt m c t.val t.isLt) (iblk m c 2 t) p q).trans ?_
  rw [← same _ hu (by omega), scratch_run_end m c (t.val / 4) hu p q, b_block m c t (ix2 (0 : Fin 1) q)]
  unfold tiled
  have e1 : t.val / 4 / 8 = t.val / 32 := by omega
  rw [e1]

end Cert.KernelIdeal.Acc

end
-- ==== Proof.OutputArray.lean ====
/-
  The kernel's result array after the run.

  The pallas_call's output array [8192, 16384] is written back one [1024, 2048] block per reduction run, at the
  run's last point, and the 64 blocks tile it: entry (r, n) lies in the block of row tile r / 1024 and column tile
  n / 2048, written at point  32·(r / 1024) + 4·(n / 2048) + 3.  Every written block is the tiled layer's block
  there, so the array ends holding the tiled layer of the arrays the region read; the program's result is that
  array recast to [4, 2048, 16384].
-/
import proofs.«148601_j11081015624230_2_alg».proof.Proof.Accumulation
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Linear Cert.KernelIdeal.Blocks

variable (m : (ℓ : Loc nD τ sig) → Buf (Elt Ideal) ℓ) (ρ : Dev nD → PrngReg)

/-- The tiled layer of the arrays the region read, as contents of the output array. -/
def outArr (c : Dev nD) : S8192x16384.Idx → EReal := fun j => tiled (xs m c) (ws m c) (bs m c) (j 0).val (j 1).val

/-- A block's entry, for an index of the block given as a whole. -/
theorem block_entry (c : Dev nD) (t : Fin cfg0.N) (h3 : t.val % 4 = 3) (y : S1024x2048.Idx) :
    (outsAt0 m c t.val t.isLt).1 y
      = tiled (xs m c) (ws m c) (bs m c) (t.val / 32 * 1024 + (y 0).val) (t.val / 4 % 8 * 2048 + (y 1).val) := by
  obtain ⟨p, q, rfl⟩ : ∃ (p : Fin 1024) (q : Fin 2048), y = ix2 p q := ⟨y 0, y 1, eq_ix2 y⟩
  exact Acc.output_entry m c t h3 p q

/-- What a writing point writes back is its block of the tiled layer. -/
theorem flushed_eq (c : Dev nD) (t : Fin cfg0.N) (hf : (cfg0.win 3).flush t = true) :
    (dats m 0 c).flushed 3 t = ((cfg0.win 3).blk t).view.read (Elt Ideal) (outArr m c) := by
  have h3 : t.val % 4 = 3 := (flush0_3 t).mp hf
  obtain ⟨-, -, -, -, -, -, e0, e1⟩ := block_numbers t
  show (cfg0.win 3).cut (grid0.coords t) ((dats m 0 c).after 3 t) = _
  rw [after0_3]
  funext y
  show (outsAt0 m c t.val t.isLt).1 y = outArr m c (((cfg0.win 3).blk t).view.emb y)
  rw [block_entry m c t h3 y]
  unfold outArr
  have r0 : ((((cfg0.win 3).blk t).view.emb y) 0).val = t.val / 32 * 1024 + (y 0).val := by
    show win0_3.index t (0 : Fin 2) * 1024 + 1 * (y 0).val = _
    omega
  have r1 : ((((cfg0.win 3).blk t).view.emb y) 1).val = t.val / 4 % 8 * 2048 + (y 1).val := by
    show win0_3.index t (1 : Fin 2) * 2048 + 1 * (y 1).val = _
    omega
  show _ = tiled _ _ _ ((((cfg0.win 3).blk t).view.emb y) 0).val ((((cfg0.win 3).blk t).view.emb y) 1).val
  rw [r0, r1]

/-- An index is in a point's block iff each coordinate is in the block's range. -/
theorem mem_blk (t : Fin cfg0.N) (i : S8192x16384.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v4).slice (win0_3.rect t)).set ↔ _
  rw [View.set_slice_whole, Rect.mem_set_unit]
  exact Iff.rfl

/-- Every entry of the array lies in the block some run writes back. -/
theorem covered (i : S8192x16384.Idx) :
    ∃ t : Fin cfg0.N, (cfg0.win 3).flush t = true ∧ i ∈ ((cfg0.win 3).blk t).view.set := by
  have hN : cfg0.N = 256 := N_0
  have hi0 : (i 0).val < 8192 := (i 0).isLt
  have hi1 : (i 1).val < 16384 := (i 1).isLt
  obtain ⟨t, ht⟩ : ∃ t : Fin cfg0.N, t.val = (i 0).val / 1024 * 32 + (i 1).val / 2048 * 4 + 3 :=
    ⟨⟨(i 0).val / 1024 * 32 + (i 1).val / 2048 * 4 + 3, by omega⟩, rfl⟩
  obtain ⟨-, -, -, -, -, -, e0, e1⟩ := block_numbers t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 2048 ≤ (i 1).val ∧ (i 1).val < win0_3.index t (1 : Fin 2) * 2048 + 2048
    omega

/-- The output array after the run. -/
theorem final (c : Dev nD) : (dats m 0 c).arrAt 3 cfg0.N = outArr m c :=
  (dats m 0 c).arrAt_eq_of_cover 3 (outArr m c) (flushed_eq m c) covered

/-- The program's result: the output array recast to three axes. -/
def result (c : Dev nD) : S4x2048x16384.Idx → EReal :=
  shapeCast S4x2048x16384 (outArr m c) shapeCasts_S8192x16384_S4x2048x16384

/-- The one host operation after the region recasts the array the region left. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  unfold result
  exact congrArg (fun a => shapeCast S4x2048x16384 a shapeCasts_S8192x16384_S4x2048x16384)
    ((Pipeline.withArrays_arr spec0 launch0.win.arr_inj c _ _ 3).trans (final m c))

/-- The run, read: the result at the recast tiled layer, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.Agreement.lean ====
/-
  The kernel's result is the reference's.

  The host operations around the pallas_call only re-index: x [4, 2048, 4096] is recast to [8192, 4096] with row
  2048·a + b standing for (a, b), the bias [16384] becomes a row [1, 16384], narrowing to a shorter float format
  is the identity on exact values, and the output [8192, 16384] is recast back to [4, 2048, 16384]. So the result
  at (a, b, n) is the tiled layer's entry (2048·a + b, n) of those arrays, which is the dense layer's entry
      (∑ d < 4096, x[a, b, d] · w[n, d]) + bias[n]
  — the reference's contraction followed by its broadcast bias add, read at the same index.
-/
import proofs.«148601_j11081015624230_2_alg».proof.Proof.OutputArray
import proofs.«148601_j11081015624230_2_alg».proof.Proof.Gen.ReferenceIdeal.Read
import Idealize.ShloMosaic.Lib.ValueLayout

noncomputable section

open scoped BigOperators
open Idealize.ShloMosaic Idealize.ShloMosaic.TcCoe Idealize.SL.Sem Idealize.ShloMosaic.ValueIdx

namespace Cert.KernelIdeal.Agree

open Cert.KernelIdeal Cert.KernelIdeal.Gen Cert.Linear Cert.KernelIdeal.Blocks

variable (m : (ℓ : Loc nD τ sig) → Buf (Elt Ideal) ℓ)

/-- The three arguments as launched. -/
abbrev arg0 (c : Dev nD) : S4x2048x4096.Idx → EReal := m ((c : Thread nD τ).loc main_arg0)
abbrev arg1 (c : Dev nD) : S16384x4096.Idx → EReal := m ((c : Thread nD τ).loc main_arg1)
abbrev arg2 (c : Dev nD) : S16384.Idx → EReal := m ((c : Thread nD τ).loc main_arg2)

/-- x as the region finds it: the argument recast to two axes and narrowed. -/
theorem xs_eq (c : Dev nD) : xs m c
    = truncf (F := Ideal) .bf16 (shapeCast S8192x4096 (arg0 m c) shapeCasts_S4x2048x4096_S8192x4096) bitsLt_bf16_f32 := by
  show StableHlo.after hostOps0 (fun b => m (c, b)) (Proc.devRef .tc main_v1) = _
  after_results
  rfl

/-- w as the region finds it: the argument narrowed. -/
theorem ws_eq (c : Dev nD) : ws m c = truncf (F := Ideal) .bf16 (arg1 m c) bitsLt_bf16_f32 := by
  show StableHlo.after hostOps0 (fun b => m (c, b)) (Proc.devRef .tc main_v2) = _
  after_results

/-- The bias as the region finds it: the argument as one row. -/
theorem bs_eq (c : Dev nD) : bs m c = shapeCast S1x16384 (arg2 m c) shapeCasts_S16384_S1x16384 := by
  show StableHlo.after hostOps0 (fun b => m (c, b)) (Proc.devRef .tc main_v3) = _
  after_results
  rfl

/-- Row 2048·a + b of the recast x is row (a, b) of x. -/
theorem xs_entry (c : Dev nD) (a : Fin 4) (b : Fin 2048) (d : Fin 4096) (r : Fin 8192) (hr : r.val = a.val * 2048 + b.val) :
    xs m c (ix2 r d) = arg0 m c (ix3 a b d) := by
  rw [xs_eq]
  show shapeCast S8192x4096 (arg0 m c) shapeCasts_S4x2048x4096_S8192x4096 (ix2 r d) = _
  refine shapeCast_apply (arg0 m c) shapeCasts_S4x2048x4096_S8192x4096 (ix2 r d) (ix3 a b d) ?_
  rw [Shape.rowMajor_val_three, Shape.rowMajor_val_two]
  show (a.val * 2048 + b.val) * 4096 + d.val = r.val * 4096 + d.val
  rw [hr]

theorem ws_entry (c : Dev nD) (j : S16384x4096.Idx) : ws m c j = arg1 m c j := by
  rw [ws_eq]
  rfl

theorem bs_entry (c : Dev nD) (n : Fin 16384) : bs m c (ix2 (0 : Fin 1) n) = arg2 m c (ix1 n) := by
  rw [bs_eq]
  exact shapeCast_a_1a_apply (arg2 m c) shapeCasts_S16384_S1x16384 0 n

/-- The result at (a, b, n). -/
theorem result_apply (c : Dev nD) (a : Fin 4) (b : Fin 2048) (n : Fin 16384) :
    Result.result m c (ix3 a b n)
      = (∑ d : Fin 4096, arg0 m c (ix3 a b d) * arg1 m c (ix2 n d)) + arg2 m c (ix1 n) := by
  have hr : a.val * 2048 + b.val < 8192 := by omega
  unfold Result.result
  refine (shapeCast_apply (Result.outArr m c) shapeCasts_S8192x16384_S4x2048x16384 (ix3 a b n)
    (ix2 (⟨a.val * 2048 + b.val, hr⟩ : Fin 8192) n) (by
      rw [Shape.rowMajor_val_three, Shape.rowMajor_val_two]; rfl)).trans ?_
  unfold Result.outArr
  refine (tiled_eq_dense (xs m c) (ws m c) (bs m c) (⟨a.val * 2048 + b.val, hr⟩ : Fin 8192) n).trans ?_
  unfold dense
  rw [bs_entry m c n]
  refine congrArg (· + arg2 m c (ix1 n)) (Finset.sum_congr rfl fun d _ => ?_)
  rw [xs_entry m c a b d ⟨a.val * 2048 + b.val, hr⟩ rfl, ws_entry m c (ix2 n d)]

open Cert.ReferenceIdeal.Read in
/-- The reference's result at (a, b, n). -/
theorem reference_apply (x0 : Cert.ReferenceIdeal.S4x2048x4096.Idx → EReal) (x1 : Cert.ReferenceIdeal.S16384x4096.Idx → EReal)
    (x2 : Cert.ReferenceIdeal.S16384.Idx → EReal) (a : Fin 4) (b : Fin 2048) (n : Fin 16384) :
    val_main_v3 (F := Ideal) x0 x1 x2 (ix3 a b n) = (∑ d : Fin 4096, x0 (ix3 a b d) * x1 (ix2 n d)) + x2 (ix1 n) := by
  have el : ∀ d : Fin 4096, lidx_main_v0 (ix3 a b n) d = ix3 a b d := fun d => funext fun ax => Fin.ext (by
    match ax with
    | ⟨0, _⟩ => rfl
    | ⟨1, _⟩ => rfl
    | ⟨2, _⟩ => rfl)
  have er : ∀ d : Fin 4096, ridx_main_v0 (ix3 a b n) d = ix2 n d := fun d => funext fun ax => Fin.ext (by
    match ax with
    | ⟨0, _⟩ => rfl
    | ⟨1, _⟩ => rfl)
  have eb : idx_main_v1 (idx_main_v2 (ix3 a b n)) = ix1 n := funext fun ax => Fin.ext (by
    match ax with
    | ⟨0, _⟩ => rfl)
  rw [val_main_v3_apply, val_main_v0_apply, val_main_v2_apply, val_main_v1_apply, eb]
  simp only [el, er]
  rfl

/-- The kernel's result is the reference's function of the same arguments. -/
theorem result_eq_reference (c : Dev nD) :
    Result.result m c = Cert.ReferenceIdeal.Read.val_main_v3 (F := Ideal) (arg0 m c) (arg1 m c) (arg2 m c) := by
  funext i
  obtain ⟨a, b, n, rfl⟩ : ∃ (a : Fin 4) (b : Fin 2048) (n : Fin 16384), i = ix3 a b n := ⟨i 0, i 1, i 2, eq_ix3 i⟩
  rw [result_apply m c a b n, reference_apply (arg0 m c) (arg1 m c) (arg2 m c) a b n]

end Cert.KernelIdeal.Agree

end
-- ==== Proof.lean ====
/-
  A linear layer  out[a, b, n] = (∑ d < 4096, x[a, b, d] · w[n, d]) + bias[n]  computed by a tiled kernel, against
  the same layer written as one contraction and one broadcast add.

  The kernel walks an 8 × 8 × 4 grid: a [1024, 2048] output tile per (row tile, column tile), its contraction cut into
  four steps of 1024 that accumulate into a scratch tile zeroed at the first step; the last step adds the bias row and
  writes the tile out. Read over the extended reals every float operation is exact and a change of float format is the
  identity, so an output entry is  ((((0 + P₀) + P₁) + P₂) + P₃) + bias[n]  with P_s the s-th quarter of the
  contraction's sum. That is the reference's  (∑ d, x·w) + bias[n]:  the four quarters are the whole sum regrouped,
  and adding extended reals is commutative and associative with unit 0. Nothing here needs the inputs to be finite.

  That each of the three programs terminates without a fault and leaves its arguments unchanged is proved in the
  generated modules imported below. No operation of the kernel changes in passing to the extended reals, so the
  statement relating the kernel as printed to its exact reading is trivially true.
-/
import proofs.«148601_j11081015624230_2_alg».proof.Defs
import proofs.«148601_j11081015624230_2_alg».proof.Proof.Gen.Kernel
import proofs.«148601_j11081015624230_2_alg».proof.Proof.Gen.Kernel.Skeleton
import proofs.«148601_j11081015624230_2_alg».proof.Proof.Gen.Kernel.Launch
import proofs.«148601_j11081015624230_2_alg».proof.Proof.Gen.Kernel.Points
import proofs.«148601_j11081015624230_2_alg».proof.Proof.Gen.Kernel.Frame
import proofs.«148601_j11081015624230_2_alg».proof.Proof.Gen.KernelIdeal
import proofs.«148601_j11081015624230_2_alg».proof.Proof.Gen.KernelIdeal.Skeleton
import proofs.«148601_j11081015624230_2_alg».proof.Proof.Gen.KernelIdeal.Launch
import proofs.«148601_j11081015624230_2_alg».proof.Proof.Gen.KernelIdeal.Points
import proofs.«148601_j11081015624230_2_alg».proof.Proof.Gen.KernelIdeal.Frame
import proofs.«148601_j11081015624230_2_alg».proof.Proof.Gen.ReferenceIdeal
import proofs.«148601_j11081015624230_2_alg».proof.Proof.Gen.ReferenceIdeal.Run
import proofs.«148601_j11081015624230_2_alg».proof.Proof.Gen.ReferenceIdeal.Read
import proofs.«148601_j11081015624230_2_alg».proof.Proof.Gen.Pre_finite_inputs
import Idealize.ShloMosaic.Adequacy
import Idealize.ShloMosaic.Init
import proofs.«148601_j11081015624230_2_alg».proof.Proof.Agreement

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of four array operations: its run is their composition. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on x, w and bias, both programs end with the same array: the kernel's tiled sum plus
    bias is the reference's whole sum plus bias, entry by entry. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact (Cert.KernelIdeal.Agree.result_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
